-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg8 : FVec F S128x128 .f32) (main_arg9 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg5 : FVec F S128 .f32) (main_arg6 : FVec F S256x128 .f32) (main_arg7 : FVec F S128 .f32) (main_arg8 : FVec F S128x128 .f32) (main_arg9 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x128 .f32 := Host.absf main_arg6
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x800000 32) (main_arg2 : FVec F S256x128 .f32) (main_arg3 : FVec F S128 .f32) (main_arg4 : FVec F S128x128 .f32) (main_arg5 : FVec F S128 .f32) (main_arg6 : FVec F S256x128 .f32) (main_arg7 : FVec F S128 .f32) (main_arg8 : FVec F S128x128 .f32) (main_arg9 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S8000x128 : Shape := ⟨2, ![8000, 128]⟩
abbrev S5000x128 : Shape := ⟨2, ![5000, 128]⟩

abbrev nBuf : Space → Nat
  | .hbm => 47
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S50000x128, .bf16⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x128, .bf16⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x128, .bf16⟩
  | .hbm, ⟨33, _⟩ => ⟨S128x128, .f32⟩
  | .hbm, ⟨34, _⟩ => ⟨S128x128, .f32⟩
  | .hbm, ⟨35, _⟩ => ⟨S1x128, .f32⟩
  | .hbm, ⟨36, _⟩ => ⟨S1x128, .f32⟩
  | .hbm, ⟨37, _⟩ => ⟨S800000x128, .f32⟩
  | .hbm, ⟨38, _⟩ => ⟨S_, .f32⟩
  | .hbm, ⟨39, _⟩ => ⟨S50000x128, .f32⟩
  | .hbm, ⟨40, _⟩ => ⟨S800000x1, .i32⟩
  | .hbm, ⟨41, _⟩ => ⟨S50000x128, .f32⟩
  | .hbm, ⟨42, _⟩ => ⟨S128x128, .f32⟩
  | .hbm, ⟨43, _⟩ => ⟨S128x128, .f32⟩
  | .hbm, ⟨44, _⟩ => ⟨S1x128, .f32⟩
  | .hbm, ⟨45, _⟩ => ⟨S1x128, .f32⟩
  | .hbm, ⟨46, _⟩ => ⟨S50000x128, .f32⟩
  | .local _ .vmem, ⟨0, _⟩ => ⟨S8000x128, .bf16⟩
  | .local _ .vmem, ⟨1, _⟩ => ⟨S8000x128, .bf16⟩
  | .local _ .vmem, ⟨2, _⟩ => ⟨S8000x128, .bf16⟩
  | .local _ .vmem, ⟨3, _⟩ => ⟨S8000x128, .bf16⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S128x128, .f32⟩
  | .local _ .vmem, ⟨8, _⟩ => ⟨S1x128, .f32⟩
  | .local _ .vmem, ⟨9, _⟩ => ⟨S8000x128, .f32⟩
  | .local _ .vmem, ⟨10, _⟩ => ⟨S8000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S128x128, .f32⟩
  | .local _ .vmem, ⟨16, _⟩ => ⟨S128x128, .f32⟩
  | .local _ .vmem, ⟨17, _⟩ => ⟨S1x128, .f32⟩
  | .local _ .vmem, ⟨18, _⟩ => ⟨S128x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_1 : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  slices_S256x128_S128x128_0_0 : S256x128.Slices ![0, 0] S128x128
  slices_S256x128_S128x128_128_0 : S256x128.Slices ![128, 0] S128x128
  shapeCasts_S128_S1x128 : S128.ShapeCasts S1x128
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  gather_S50000x128_S800000x1_S800000x128_1_0_n_n_0_1_1128_wf : GatherDims.WF S50000x128 S800000x1 S800000x128 [1] [0] [] [0] [] 1 ![1, 128]
  dot_S8000x128_S128x128_S8000x128_1_0_0_1_n_n_wf : DotDims.WF S8000x128 S128x128 S8000x128 [1] [0] [0] [1] [] []
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S800000x128.size a
  hwx0_0 : ∀ i : grid0.Coords, EltTy.bits .bf16 = 32 ∨ (Rect.block (s := S800000x128) S8000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x128.size a ≤ S800000x128.size a
  hwx0_1 : ∀ i : grid0.Coords, EltTy.bits .bf16 = 32 ∨ (Rect.block (s := S800000x128) S8000x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8000x128.size a ≤ S800000x128.size a
  hwx0_7 : ∀ i : grid0.Coords, EltTy.bits .f32 = 32 ∨ (Rect.block (s := S800000x128) S8000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S50000x128.size a
  hwx1_7 : ∀ i : grid1.Coords, EltTy.bits .f32 = 32 ∨ (Rect.block (s := S50000x128) S5000x128.size (cc1_transform_7 i) (hinb1_7 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v11) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S8000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v23) S8000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v30) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v31) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S800000x256 : Shape := ⟨2, ![800000, 256]⟩
abbrev S1x128 : Shape := ⟨2, ![1, 128]⟩
abbrev S50000x256 : Shape := ⟨2, ![50000, 256]⟩

abbrev nBuf : Space → Nat
  | .hbm => 63
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x128, .f32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S800000x128, .f32⟩
  | .hbm, ⟨32, _⟩ => ⟨S800000x256, .f32⟩
  | .hbm, ⟨33, _⟩ => ⟨S800000x128, .f32⟩
  | .hbm, ⟨34, _⟩ => ⟨S1x128, .f32⟩
  | .hbm, ⟨35, _⟩ => ⟨S800000x128, .f32⟩
  | .hbm, ⟨36, _⟩ => ⟨S800000x128, .f32⟩
  | .hbm, ⟨37, _⟩ => ⟨S_, .f32⟩
  | .hbm, ⟨38, _⟩ => ⟨S800000x128, .f32⟩
  | .hbm, ⟨39, _⟩ => ⟨S800000x128, .f32⟩
  | .hbm, ⟨40, _⟩ => ⟨S800000x128, .f32⟩
  | .hbm, ⟨41, _⟩ => ⟨S1x128, .f32⟩
  | .hbm, ⟨42, _⟩ => ⟨S800000x128, .f32⟩
  | .hbm, ⟨43, _⟩ => ⟨S800000x128, .f32⟩
  | .hbm, ⟨44, _⟩ => ⟨S_, .f32⟩
  | .hbm, ⟨45, _⟩ => ⟨S50000x128, .f32⟩
  | .hbm, ⟨46, _⟩ => ⟨S800000x1, .i32⟩
  | .hbm, ⟨47, _⟩ => ⟨S50000x128, .f32⟩
  | .hbm, ⟨48, _⟩ => ⟨S50000x256, .f32⟩
  | .hbm, ⟨49, _⟩ => ⟨S50000x128, .f32⟩
  | .hbm, ⟨50, _⟩ => ⟨S1x128, .f32⟩
  | .hbm, ⟨51, _⟩ => ⟨S50000x128, .f32⟩
  | .hbm, ⟨52, _⟩ => ⟨S50000x128, .f32⟩
  | .hbm, ⟨53, _⟩ => ⟨S_, .f32⟩
  | .hbm, ⟨54, _⟩ => ⟨S50000x128, .f32⟩
  | .hbm, ⟨55, _⟩ => ⟨S50000x128, .f32⟩
  | .hbm, ⟨56, _⟩ => ⟨S50000x128, .f32⟩
  | .hbm, ⟨57, _⟩ => ⟨S1x128, .f32⟩
  | .hbm, ⟨58, _⟩ => ⟨S50000x128, .f32⟩
  | .hbm, ⟨59, _⟩ => ⟨S50000x128, .f32⟩
  | .hbm, ⟨60, _⟩ => ⟨S_, .f32⟩
  | .hbm, ⟨61, _⟩ => ⟨S50000x128, .f32⟩
  | .hbm, ⟨62, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_call0_cst : Ref sig .tc := ⟨.hbm, 37, rfl⟩
abbrev main_call0_v0 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_call1_cst : Ref sig .tc := ⟨.hbm, 53, rfl⟩
abbrev main_call1_v0 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_call2_cst : Ref sig .tc := ⟨.hbm, 60, rfl⟩
abbrev main_call2_v0 : Ref sig .tc := ⟨.hbm, 61, rfl⟩
abbrev main_v41 : Ref sig .tc := ⟨.hbm, 62, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x256_d1 : Shape.Concatenates [S800000x128, S800000x128] S800000x256 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  dot_S800000x256_S256x128_S800000x128_1_0_0_1_n_n_wf : DotDims.WF S800000x256 S256x128 S800000x128 [1] [0] [0] [1] [] []
  dot_S800000x128_S128x128_S800000x128_1_0_0_1_n_n_wf : DotDims.WF S800000x128 S128x128 S800000x128 [1] [0] [0] [1] [] []
  scatter_S50000x128_S800000x1_S800000x128_1_0_0_1_wf : ScatterDims.WF S50000x128 S800000x1 S800000x128 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x256_S256x128_S800000x128_1_0_0_1_n_n : DotDims S800000x256 S256x128 S800000x128 where
  lhsContracting := [1]
  rhsContracting := [0]
  lhsNonContracting := [0]
  rhsNonContracting := [1]
  lhsBatch := []
  rhsBatch := []
  wf := dot_S800000x256_S256x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KRun.lean ====
/-
  The run of the whole kernel program with its result named.

  @main is four segments: the host operations before the first region (index arithmetic, the two gathers, the slices and
  reshapes of the message weights), the message region, the host operations between the regions (the scatter-add and the
  slices and reshapes of the update weights), the update region.  Every weakly fair execution terminates without a fault,
  and in its final state every buffer that outlives the regions holds the contents obtained by folding the four segments
  over the launch memory; in particular the result buffer holds that fold's value at it, and the ten arguments are as
  launched.
-/
import proofs.«122438_j60619168416174_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the value the fold of the
    four segments has there and every argument as launched. -/
theorem run : θ_run defs (onTc (τ := τ) (main (F := F))) ⟨m, fun _ => 0, ρ⟩ (fun r => ∀ c : Dev nD,
      r.2.mem ((c.tc : Thread nD τ).loc main_v31) = W4 m ρ c (Proc.devRef .tc main_v31)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v31 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.KernelIdeal.Run

end
-- ==== Proof.Layer.lean ====
/-
  The mathematics shared by the two stages of the message-passing network, on the extended reals.

  One stage takes two row-aligned matrices `A`, `B` (128 columns each) and applies, row by row, a two-layer perceptron whose
  first layer acts on the 256-long row `[A r | B r]`:
      hidden r k = max ((Σ_j [A r | B r] j · W1 j k) + b1 k) 0,      out r c = (Σ_k hidden r k · W2 k c) + b2 c.
  A program may form the joined row and contract it with the whole 256-row `W1` at once, or contract `A r` with the upper
  128 rows of `W1`, `B r` with the lower 128 rows, and add: the two agree because a finite sum over `Fin (128 + 128)`
  splits into the sums over its two halves, which needs only that addition is commutative and associative (true of the
  extended reals, infinities included). `layer` is the stage in the split form, `joined_sum` the splitting law.
-/
import Idealize.ShloMosaic.PureOps.Ideal
import Idealize.ShloMosaic.Lib.ValueIdx
import Mathlib.Algebra.BigOperators.Fin

noncomputable section

namespace Cert.Layer

open Idealize.ShloMosaic Idealize.ShloMosaic.ValueIdx

/-- One hidden unit of a row: the two halves of the joined row contracted with the two halves of the first weight matrix,
    the bias added, clamped at zero from below. -/
def hidden (a b : Fin 128 → EReal) (wt wb : Fin 128 → Fin 128 → EReal) (b1 : Fin 128 → EReal) (k : Fin 128) : EReal :=
  max (((∑ j : Fin 128, a j * wt j k) + (∑ j : Fin 128, b j * wb j k)) + b1 k) 0

/-- One output unit of a row: the hidden row contracted with the second weight matrix, the bias added. -/
def out (a b : Fin 128 → EReal) (wt wb : Fin 128 → Fin 128 → EReal) (b1 : Fin 128 → EReal)
    (w2 : Fin 128 → Fin 128 → EReal) (b2 : Fin 128 → EReal) (c : Fin 128) : EReal :=
  (∑ k : Fin 128, hidden a b wt wb b1 k * w2 k c) + b2 c

/-- An output unit depends on its seven ingredients only through their values. -/
theorem out_congr {a a' b b' : Fin 128 → EReal} {wt wt' wb wb' : Fin 128 → Fin 128 → EReal} {b1 b1' : Fin 128 → EReal}
    {w2 w2' : Fin 128 → Fin 128 → EReal} {b2 b2' : Fin 128 → EReal}
    (ha : a = a') (hb : b = b') (hwt : wt = wt') (hwb : wb = wb') (hb1 : b1 = b1') (hw2 : w2 = w2') (hb2 : b2 = b2')
    (c : Fin 128) : out a b wt wb b1 w2 b2 c = out a' b' wt' wb' b1' w2' b2' c := by
  subst ha hb hwt hwb hb1 hw2 hb2; rfl

/-- The upper and the lower 128 rows of a 256-row matrix, as functions of a row and a column. -/
def upper (W1 : (⟨2, ![256, 128]⟩ : Shape).Idx → EReal) (j k : Fin 128) : EReal := W1 (ix2 (Fin.castAdd 128 j) k)
def lower (W1 : (⟨2, ![256, 128]⟩ : Shape).Idx → EReal) (j k : Fin 128) : EReal := W1 (ix2 (Fin.natAdd 128 j) k)

/-- Row `r` of a matrix with 128 columns. -/
def row {n : ℕ} (A : (⟨2, ![n, 128]⟩ : Shape).Idx → EReal) (r : Fin n) (j : Fin 128) : EReal := A (ix2 r j)

/-- The stage on whole arrays: entry `(r, c)` is `post` of output unit `c` of row `r`, from rows `r` of `A` and `B`, the two
    halves of `W1`, and the biases and second weights read as plain functions of their coordinates. -/
def layer {n : ℕ} (post : EReal → EReal) (A B : (⟨2, ![n, 128]⟩ : Shape).Idx → EReal)
    (W1 : (⟨2, ![256, 128]⟩ : Shape).Idx → EReal) (b1 : (⟨1, ![128]⟩ : Shape).Idx → EReal)
    (W2 : (⟨2, ![128, 128]⟩ : Shape).Idx → EReal) (b2 : (⟨1, ![128]⟩ : Shape).Idx → EReal) :
    (⟨2, ![n, 128]⟩ : Shape).Idx → EReal :=
  fun i => post (out (row A ⟨(i 0).val, idx2_lt0 i⟩) (row B ⟨(i 0).val, idx2_lt0 i⟩) (upper W1) (lower W1)
    (fun k => b1 (ix1 k)) (fun k c => W2 (ix2 k c)) (fun c => b2 (ix1 c)) ⟨(i 1).val, idx2_lt1 i⟩)

theorem layer_apply {n : ℕ} (post : EReal → EReal) (A B : (⟨2, ![n, 128]⟩ : Shape).Idx → EReal)
    (W1 : (⟨2, ![256, 128]⟩ : Shape).Idx → EReal) (b1 : (⟨1, ![128]⟩ : Shape).Idx → EReal)
    (W2 : (⟨2, ![128, 128]⟩ : Shape).Idx → EReal) (b2 : (⟨1, ![128]⟩ : Shape).Idx → EReal) (r : Fin n) (c : Fin 128) :
    layer post A B W1 b1 W2 b2 (ix2 r c)
      = post (out (row A r) (row B r) (upper W1) (lower W1) (fun k => b1 (ix1 k)) (fun k c => W2 (ix2 k c)) (fun c => b2 (ix1 c)) c) := rfl

/-- The same stage with the first weight matrix already cut into its two [128,128] halves and the biases laid out as
    one-row matrices, as a program that splits the contraction receives them. -/
def stage {n : ℕ} (post : EReal → EReal) (A B : (⟨2, ![n, 128]⟩ : Shape).Idx → EReal)
    (Wt Wb : (⟨2, ![128, 128]⟩ : Shape).Idx → EReal) (b1 : (⟨2, ![1, 128]⟩ : Shape).Idx → EReal)
    (W2 : (⟨2, ![128, 128]⟩ : Shape).Idx → EReal) (b2 : (⟨2, ![1, 128]⟩ : Shape).Idx → EReal) :
    (⟨2, ![n, 128]⟩ : Shape).Idx → EReal :=
  fun i => post (out (row A ⟨(i 0).val, idx2_lt0 i⟩) (row B ⟨(i 0).val, idx2_lt0 i⟩) (fun j k => Wt (ix2 j k)) (fun j k => Wb (ix2 j k))
    (fun k => b1 (ix2 0 k)) (fun k c => W2 (ix2 k c)) (fun c => b2 (ix2 0 c)) ⟨(i 1).val, idx2_lt1 i⟩)

/-- When the halves are the upper and lower rows of `W1` and the one-row matrices hold the bias vectors, it is `layer`. -/
theorem stage_eq_layer {n : ℕ} (post : EReal → EReal) (A B : (⟨2, ![n, 128]⟩ : Shape).Idx → EReal)
    (Wt Wb : (⟨2, ![128, 128]⟩ : Shape).Idx → EReal) (r1 : (⟨2, ![1, 128]⟩ : Shape).Idx → EReal)
    (W2 : (⟨2, ![128, 128]⟩ : Shape).Idx → EReal) (r2 : (⟨2, ![1, 128]⟩ : Shape).Idx → EReal)
    (W1 : (⟨2, ![256, 128]⟩ : Shape).Idx → EReal) (b1 b2 : (⟨1, ![128]⟩ : Shape).Idx → EReal)
    (hWt : ∀ j k : Fin 128, Wt (ix2 j k) = W1 (ix2 (Fin.castAdd 128 j) k))
    (hWb : ∀ j k : Fin 128, Wb (ix2 j k) = W1 (ix2 (Fin.natAdd 128 j) k))
    (h1 : ∀ k : Fin 128, r1 (ix2 0 k) = b1 (ix1 k)) (h2 : ∀ k : Fin 128, r2 (ix2 0 k) = b2 (ix1 k)) :
    stage post A B Wt Wb r1 W2 r2 = layer post A B W1 b1 W2 b2 := by
  funext i
  simp only [stage, layer, hWt, hWb, h1, h2]
  rfl

/-- THE LAW. A sum over the 256 positions of a joined row, each read from the first piece below 128 and from the second
    piece from 128 on, is the sum over the first piece plus the sum over the second. -/
theorem joined_sum (f : Fin 256 → EReal) :
    (∑ l : Fin 256, f l) = (∑ j : Fin 128, f (Fin.castAdd 128 j)) + (∑ j : Fin 128, f (Fin.natAdd 128 j)) :=
  Fin.sum_univ_add (a := 128) (b := 128) f

end Cert.Layer

end
-- ==== Proof.LibPlainMatmul.lean ====
/-
  A plain matrix product on the extended reals, read at an entry.

  A `tpu.matmul` of an [m, K] operand by a [K, n] operand — axis 1 of the left contracted with axis 0 of the right, no batch
  axis — accumulated into the f32 zero splat, and the host's `dot_general` of the same form, read at (p, q), are the textbook
  entry  Σ_k l(p, k) · r(k, q).  The dimension
  record is taken in literal form (the six axis lists written out over any well-formedness witness), so a printed record of
  that form is an instance by unfolding its name.  The operands' formats are free: at the ideal values every format is the
  extended reals.
-/
import Idealize.ShloMosaic.PureOps.Ideal.Laws
import Idealize.ShloMosaic.Lib.ValueIdx

noncomputable section

namespace Cert.PlainMatmul

open Idealize.ShloMosaic Idealize.ShloMosaic.ValueIdx

/-- The literal record of a plain [m, K] × [K, n] product. -/
abbrev plain {m K n : ℕ}
    (wf : DotDims.WF (⟨2, ![m, K]⟩ : Shape) (⟨2, ![K, n]⟩ : Shape) (⟨2, ![m, n]⟩ : Shape) [1] [0] [0] [1] [] []) :
    DotDims (⟨2, ![m, K]⟩ : Shape) (⟨2, ![K, n]⟩ : Shape) (⟨2, ![m, n]⟩ : Shape) :=
  { lhsContracting := [1], rhsContracting := [0], lhsNonContracting := [0], rhsNonContracting := [1],
    lhsBatch := [], rhsBatch := [], wf := wf }

section
variable {m K n : ℕ}
  (wf : DotDims.WF (⟨2, ![m, K]⟩ : Shape) (⟨2, ![K, n]⟩ : Shape) (⟨2, ![m, n]⟩ : Shape) [1] [0] [0] [1] [] [])
  (j : (⟨2, ![m, n]⟩ : Shape).Idx) (k : (plain wf).contr.Idx)

/-- The left operand's row is the result's row. -/
theorem lhs_row : ((plain wf).lhsIdx j k 0).val = (j 0).val := by
  unfold DotDims.lhsIdx
  rw [dif_neg (show ¬(0 : Fin (⟨2, ![m, K]⟩ : Shape).rank) ∈ (plain wf).lhsBatch from List.not_mem_nil),
    dif_pos (show (0 : Fin (⟨2, ![m, K]⟩ : Shape).rank) ∈ (plain wf).lhsNonContracting from List.mem_singleton.mpr rfl)]
  rfl

/-- The left operand's column is the contracted coordinate. -/
theorem lhs_col : ((plain wf).lhsIdx j k 1).val = (k ⟨0, Nat.one_pos⟩).val :=
  (plain wf).lhsIdx_val_of_single rfl j k

/-- The right operand's row is the contracted coordinate. -/
theorem rhs_row : ((plain wf).rhsIdx j k 0).val = (k ⟨0, Nat.one_pos⟩).val :=
  (plain wf).rhsIdx_val_of_single rfl j k

/-- The right operand's column is the result's column. -/
theorem rhs_col : ((plain wf).rhsIdx j k 1).val = (j 1).val := by
  unfold DotDims.rhsIdx
  rw [dif_neg (show ¬(1 : Fin (⟨2, ![K, n]⟩ : Shape).rank) ∈ (plain wf).rhsBatch from List.not_mem_nil),
    dif_pos (show (1 : Fin (⟨2, ![K, n]⟩ : Shape).rank) ∈ (plain wf).rhsNonContracting from List.mem_singleton.mpr rfl)]
  rfl

end

/-- The sum over the record's contraction index, re-indexed by the contracted coordinate. -/
theorem contr_sum {m K n : ℕ}
    (wf : DotDims.WF (⟨2, ![m, K]⟩ : Shape) (⟨2, ![K, n]⟩ : Shape) (⟨2, ![m, n]⟩ : Shape) [1] [0] [0] [1] [] [])
    (l : (⟨2, ![m, K]⟩ : Shape).Idx → EReal) (r : (⟨2, ![K, n]⟩ : Shape).Idx → EReal) (p : Fin m) (q : Fin n) :
    (∑ k : (plain wf).contr.Idx, l ((plain wf).lhsIdx (ix2 p q) k) * r ((plain wf).rhsIdx (ix2 p q) k))
      = ∑ k : Fin K, l (ix2 p k) * r (ix2 k q) := by
  rw [← Equiv.sum_comp (contrEquiv1 (plain wf) K rfl rfl).symm]
  refine Finset.sum_congr rfl fun k _ => ?_
  have hk := contrEquiv1_symm_val (plain wf) K rfl rfl k
  have el : (plain wf).lhsIdx (ix2 p q) ((contrEquiv1 (plain wf) K rfl rfl).symm k) = ix2 p k :=
    funext fun a => Fin.ext (by
      match a with
      | ⟨0, _⟩ => exact lhs_row wf _ _
      | ⟨1, _⟩ => exact (lhs_col wf _ _).trans hk)
  have er : (plain wf).rhsIdx (ix2 p q) ((contrEquiv1 (plain wf) K rfl rfl).symm k) = ix2 k q :=
    funext fun a => Fin.ext (by
      match a with
      | ⟨0, _⟩ => exact (rhs_row wf _ _).trans hk
      | ⟨1, _⟩ => exact rhs_col wf _ _)
  rw [el, er]

/-- Entry (p, q) of a kernel's product into the zero splat is the sum over the contracted axis of the entries' products. -/
theorem matmul_zero_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision)
    (l : FVec Ideal (⟨2, ![m, K]⟩ : Shape) φ₁) (r : FVec Ideal (⟨2, ![K, n]⟩ : Shape) φ₂) (p : Fin m) (q : Fin n) :
    FloatOps.matmul (plain wf) prec l r (constant (⟨2, ![m, n]⟩ : Shape) .f32 0x00000000#32) (ix2 p q)
      = ∑ k : Fin K, l (ix2 p k) * r (ix2 k q) := by
  rw [Ideal.matmul_constant_zero_apply]
  exact contr_sum wf l r p q

/-- Entry (p, q) of the host's `dot_general` of the same form, under any schedule key, is the same sum. -/
theorem dotGeneral_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision) (sched : HostSchedule)
    (l : FVec Ideal (⟨2, ![m, K]⟩ : Shape) φ₁) (r : FVec Ideal (⟨2, ![K, n]⟩ : Shape) φ₂) (p : Fin m) (q : Fin n) :
    FloatOps.dotGeneral (plain wf) prec sched l r (ix2 p q) = ∑ k : Fin K, l (ix2 p k) * r (ix2 k q) := by
  rw [Ideal.dotGeneral_apply]
  exact contr_sum wf l r p q

end Cert.PlainMatmul

end
-- ==== Proof.KBody.lean ====
/-
  What each kernel body computes, entry by entry.
-/
import proofs.«122438_j60619168416174_2_alg».proof.Proof.Gen.KernelIdeal.Skeleton
import proofs.«122438_j60619168416174_2_alg».proof.Proof.Layer
import proofs.«122438_j60619168416174_2_alg».proof.Proof.LibPlainMatmul
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx Cert.Layer

theorem mm8000 {φ₁ φ₂ : FTy} (l : FVec Ideal S8000x128 φ₁) (r : FVec Ideal S128x128 φ₂) (p : Fin 8000) (q : Fin 128) :
    matmul dot_S8000x128_S128x128_S8000x128_1_0_0_1_n_n none l r (constant S8000x128 .f32 0x00000000#32) (ix2 p q)
      = ∑ k : Fin 128, l (ix2 p k) * r (ix2 k q) :=
  Cert.PlainMatmul.matmul_zero_apply dot_S8000x128_S128x128_S8000x128_1_0_0_1_n_n.wf none l r p q

theorem pay0_apply (x0 x1 : Vec Ideal S8000x128 .bf16) (x2 x3 x5 : Vec Ideal S128x128 .f32) (x4 x6 : Vec Ideal S1x128 .f32)
    (p : Fin 8000) (q : Fin 128) :
    k0_pay1 (F := Ideal) x0 x1 x2 x3 x5 x4 x6 (ix2 p q)
      = out (fun j => x0 (ix2 p j)) (fun j => x1 (ix2 p j)) (fun j k => x2 (ix2 j k)) (fun j k => x3 (ix2 j k))
          (fun k => x4 (ix2 0 k)) (fun k c => x5 (ix2 k c)) (fun c => x6 (ix2 0 c)) q := by
  unfold k0_pay1
  simp only [shapeCast_self]
  simp only [addf_apply, mm8000, broadcastTo_1b_ab_apply, truncf_apply, maximumf_apply, broadcast_apply, Ideal.ofBits_def,
    Ideal.ofBits_zero_f32]
  rfl

theorem mm5000 {φ₁ φ₂ : FTy} (l : FVec Ideal S5000x128 φ₁) (r : FVec Ideal S128x128 φ₂) (p : Fin 5000) (q : Fin 128) :
    matmul dot_S5000x128_S128x128_S5000x128_1_0_0_1_n_n none l r (constant S5000x128 .f32 0x00000000#32) (ix2 p q)
      = ∑ k : Fin 128, l (ix2 p k) * r (ix2 k q) :=
  Cert.PlainMatmul.matmul_zero_apply dot_S5000x128_S128x128_S5000x128_1_0_0_1_n_n.wf none l r p q

theorem pay1_apply (x0 x1 : Vec Ideal S5000x128 .f32) (x2 x3 x5 : Vec Ideal S128x128 .f32) (x4 x6 : Vec Ideal S1x128 .f32)
    (p : Fin 5000) (q : Fin 128) :
    k1_pay1 (F := Ideal) x0 x1 x2 x3 x5 x4 x6 (ix2 p q)
      = max (out (fun j => x0 (ix2 p j)) (fun j => x1 (ix2 p j)) (fun j k => x2 (ix2 j k)) (fun j k => x3 (ix2 j k))
          (fun k => x4 (ix2 0 k)) (fun k c => x5 (ix2 k c)) (fun c => x6 (ix2 0 c)) q) 0 := by
  unfold k1_pay1
  simp only [shapeCast_self]
  simp only [addf_apply, mm5000, broadcastTo_1b_ab_apply, truncf_apply, maximumf_apply, broadcast_apply, Ideal.ofBits_def,
    Ideal.ofBits_zero_f32]
  rfl

end Cert.KernelIdeal.Body

end
-- ==== Proof.KRegion0.lean ====
/-
  The message stage's region: the array it leaves, as one function of the arrays it found.
-/
import proofs.«122438_j60619168416174_2_alg».proof.Proof.Gen.KernelIdeal.Frame
import proofs.«122438_j60619168416174_2_alg».proof.Proof.KBody
import Idealize.ShloMosaic.Lib.Pipeline.Value

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx Cert.Layer
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- The array the region leaves in the result buffer. -/
def G0 (c : Dev nD) : S800000x128.Idx → EReal :=
  stage id (V c main_v11) (V c main_v18) (V c main_v19) (V c main_v20) (V c main_v21) (V c main_arg4) (V c main_v22)

/-- Rows: block `t` of the first gathered operand is rows `8000 t …` of its array. -/
theorem blk0 (c : Dev nD) (t : Fin cfg0.N) (y : S8000x128.Idx) (i : S800000x128.Idx)
    (h0 : (i 0).val = t.val * 8000 + (y 0).val) (h1 : (i 1).val = (y 1).val) :
    (iblk0 V c 0 t : S8000x128.Idx → EReal) y = (V c main_v11 : S800000x128.Idx → EReal) i := by
  obtain ⟨e0, e1, -⟩ := idx_facts t
  unfold iblk0
  rw [View.read_apply]
  show V c main_v11 _ = V c main_v11 _
  congr 1
  funext a; apply Fin.ext
  match a with
  | ⟨0, _⟩ => show win0_0.index t (0 : Fin 2) * 8000 + 1 * (y 0).val = (i 0).val; rw [e0, h0]; omega
  | ⟨1, _⟩ => show win0_0.index t (1 : Fin 2) * 128 + 1 * (y 1).val = (i 1).val; rw [e1, h1]; omega

/-- Rows: block `t` of the second gathered operand is rows `8000 t …` of its array. -/
theorem blk1 (c : Dev nD) (t : Fin cfg0.N) (y : S8000x128.Idx) (i : S800000x128.Idx)
    (h0 : (i 0).val = t.val * 8000 + (y 0).val) (h1 : (i 1).val = (y 1).val) :
    (iblk0 V c 1 t : S8000x128.Idx → EReal) y = (V c main_v18 : S800000x128.Idx → EReal) i := by
  obtain ⟨-, -, e2, e3, -⟩ := idx_facts t
  unfold iblk0
  rw [View.read_apply]
  show V c main_v18 _ = V c main_v18 _
  congr 1
  funext a; apply Fin.ext
  match a with
  | ⟨0, _⟩ => show win0_1.index t (0 : Fin 2) * 8000 + 1 * (y 0).val = (i 0).val; rw [e2, h0]; omega
  | ⟨1, _⟩ => show win0_1.index t (1 : Fin 2) * 128 + 1 * (y 1).val = (i 1).val; rw [e3, h1]; omega

/-- The upper half of the first weights is staged whole at every point. -/
theorem blk2 (c : Dev nD) (t : Fin cfg0.N) (y : S128x128.Idx) :
    (iblk0 V c 2 t : S128x128.Idx → EReal) y = (V c main_v19 : S128x128.Idx → EReal) y := by
  obtain ⟨-, -, -, -, e4, e5, -, -, -, -, -, -, -, -, -, -⟩ := idx_facts t
  unfold iblk0
  rw [View.read_apply]
  show V c main_v19 _ = V c main_v19 _
  congr 1
  funext a; apply Fin.ext
  match a with
  | ⟨0, _⟩ => show win0_2.index t (0 : Fin 2) * 128 + 1 * (y 0).val = (y 0).val; rw [e4]; omega
  | ⟨1, _⟩ => show win0_2.index t (1 : Fin 2) * 128 + 1 * (y 1).val = (y 1).val; rw [e5]; omega

/-- The lower half of the first weights is staged whole at every point. -/
theorem blk3 (c : Dev nD) (t : Fin cfg0.N) (y : S128x128.Idx) :
    (iblk0 V c 3 t : S128x128.Idx → EReal) y = (V c main_v20 : S128x128.Idx → EReal) y := by
  obtain ⟨-, -, -, -, -, -, e6, e7, -, -, -, -, -, -, -, -⟩ := idx_facts t
  unfold iblk0
  rw [View.read_apply]
  show V c main_v20 _ = V c main_v20 _
  congr 1
  funext a; apply Fin.ext
  match a with
  | ⟨0, _⟩ => show win0_3.index t (0 : Fin 2) * 128 + 1 * (y 0).val = (y 0).val; rw [e6]; omega
  | ⟨1, _⟩ => show win0_3.index t (1 : Fin 2) * 128 + 1 * (y 1).val = (y 1).val; rw [e7]; omega

/-- The first bias row is staged whole at every point. -/
theorem blk4 (c : Dev nD) (t : Fin cfg0.N) (y : S1x128.Idx) :
    (iblk0 V c 4 t : S1x128.Idx → EReal) y = (V c main_v21 : S1x128.Idx → EReal) y := by
  obtain ⟨-, -, -, -, -, -, -, -, e8, e9, -, -, -, -, -, -⟩ := idx_facts t
  unfold iblk0
  rw [View.read_apply]
  show V c main_v21 _ = V c main_v21 _
  congr 1
  funext a; apply Fin.ext
  match a with
  | ⟨0, _⟩ => show win0_4.index t (0 : Fin 2) * 1 + 1 * (y 0).val = (y 0).val; rw [e8]; omega
  | ⟨1, _⟩ => show win0_4.index t (1 : Fin 2) * 128 + 1 * (y 1).val = (y 1).val; rw [e9]; omega

/-- The second weights are staged whole at every point. -/
theorem blk5 (c : Dev nD) (t : Fin cfg0.N) (y : S128x128.Idx) :
    (iblk0 V c 5 t : S128x128.Idx → EReal) y = (V c main_arg4 : S128x128.Idx → EReal) y := by
  obtain ⟨-, -, -, -, -, -, -, -, -, -, e10, e11, -, -, -, -⟩ := idx_facts t
  unfold iblk0
  rw [View.read_apply]
  show V c main_arg4 _ = V c main_arg4 _
  congr 1
  funext a; apply Fin.ext
  match a with
  | ⟨0, _⟩ => show win0_5.index t (0 : Fin 2) * 128 + 1 * (y 0).val = (y 0).val; rw [e10]; omega
  | ⟨1, _⟩ => show win0_5.index t (1 : Fin 2) * 128 + 1 * (y 1).val = (y 1).val; rw [e11]; omega

/-- The second bias row is staged whole at every point. -/
theorem blk6 (c : Dev nD) (t : Fin cfg0.N) (y : S1x128.Idx) :
    (iblk0 V c 6 t : S1x128.Idx → EReal) y = (V c main_v22 : S1x128.Idx → EReal) y := by
  obtain ⟨-, -, -, -, -, -, -, -, -, -, -, -, e12, e13, -, -⟩ := idx_facts t
  unfold iblk0
  rw [View.read_apply]
  show V c main_v22 _ = V c main_v22 _
  congr 1
  funext a; apply Fin.ext
  match a with
  | ⟨0, _⟩ => show win0_6.index t (0 : Fin 2) * 1 + 1 * (y 0).val = (y 0).val; rw [e12]; omega
  | ⟨1, _⟩ => show win0_6.index t (1 : Fin 2) * 128 + 1 * (y 1).val = (y 1).val; rw [e13]; omega

/-- What point `t` computes at block position `y` is the stage's entry at the array position `i` that `y` is, when `i` is
    row `8000 t + y₀`, column `y₁`. -/
theorem point_eq (c : Dev nD) (t : Fin cfg0.N) (y : S8000x128.Idx) (i : S800000x128.Idx)
    (h0 : (i 0).val = t.val * 8000 + (y 0).val) (h1 : (i 1).val = (y 1).val) :
    k0_pay1 (F := Ideal) (iblk0 V c 0 t) (iblk0 V c 1 t) (iblk0 V c 2 t) (iblk0 V c 3 t) (iblk0 V c 5 t) (iblk0 V c 4 t)
      (iblk0 V c 6 t) y = G0 V c i := by
  obtain ⟨p, q, rfl⟩ : ∃ (p : Fin 8000) (q : Fin 128), y = ix2 p q := ⟨y 0, y 1, eq_ix2 y⟩
  obtain ⟨r, s, rfl⟩ : ∃ (r : Fin 800000) (s : Fin 128), i = ix2 r s := ⟨i 0, i 1, eq_ix2 i⟩
  have hr : r.val = t.val * 8000 + p.val := h0
  obtain rfl : s = q := Fin.ext h1
  refine (Body.pay0_apply (iblk0 V c 0 t) (iblk0 V c 1 t) (iblk0 V c 2 t) (iblk0 V c 3 t) (iblk0 V c 5 t) (iblk0 V c 4 t)
    (iblk0 V c 6 t) p s).trans ?_
  show _ = out (row (V c main_v11) r) (row (V c main_v18) r) (fun j k => V c main_v19 (ix2 j k)) (fun j k => V c main_v20 (ix2 j k))
    (fun k => V c main_v21 (ix2 0 k)) (fun k c' => V c main_arg4 (ix2 k c')) (fun c' => V c main_v22 (ix2 0 c')) s
  exact out_congr (funext fun j => blk0 V c t (ix2 p j) (ix2 r j) hr rfl) (funext fun j => blk1 V c t (ix2 p j) (ix2 r j) hr rfl)
    (funext fun j => funext fun k => blk2 V c t (ix2 j k)) (funext fun j => funext fun k => blk3 V c t (ix2 j k))
    (funext fun k => blk4 V c t (ix2 0 k)) (funext fun k => funext fun c' => blk5 V c t (ix2 k c'))
    (funext fun c' => blk6 V c t (ix2 0 c')) s

theorem flushed0 (c : Dev nD) (t : Fin cfg0.N) :
    (dat0 V c).flushed 7 t = ((cfg0.win 7).blk t).view.read (Elt Ideal) (G0 V c) := by
  show (cfg0.win 7).cut (grid0.coords t) ((dat0 V c).after 7 t) = _
  rw [after0_7]
  unfold out0_7
  rw [View.canon_unit_zero hz]
  simp only [View.ld_unit_zero (S := S8000x128) hz, View.ld_unit_zero (S := S128x128) hz, View.ld_unit_zero (S := S1x128) hz]
  funext j
  rw [View.read_apply]
  obtain ⟨-, -, -, -, -, -, -, -, -, -, -, -, -, -, e14, e15⟩ := idx_facts t
  exact point_eq V c t j _
    (by show win0_7.index t (0 : Fin 2) * 8000 + 1 * (j 0).val = t.val * 8000 + (j 0).val; rw [e14]; omega)
    (by show win0_7.index t (1 : Fin 2) * 128 + 1 * (j 1).val = (j 1).val; rw [e15]; omega)

/-- An index of the result array lies in point `t`'s block iff each coordinate lies in the block's range on its axis. -/
theorem mem_blk7 (t : Fin cfg0.N) (i : S800000x128.Idx) :
    i ∈ ((cfg0.win 7).blk t).view.set ↔ ∀ a : Fin 2, win0_7.index t a * S8000x128.size a ≤ (i a).val
      ∧ (i a).val < win0_7.index t a * S8000x128.size a + S8000x128.size a := by
  show i ∈ ((View.whole main_v23).slice (win0_7.rect t)).set ↔ _
  rw [View.set_slice_whole, Rect.mem_set_unit]
  exact Iff.rfl

/-- The result array after the region: every row lies in the block of the point that is its number divided by 8000, so the
    write-backs cover the array and it holds the stage of the arrays the region found. -/
theorem final0 (c : Dev nD) : (dat0 V c).arrAt 7 cfg0.N = G0 V c :=
  (dat0 V c).arrAt_eq_of_cover 7 (G0 V c) (fun t _ => flushed0 V c t) fun i => by
    have hi0 : ((i : S800000x128.Idx) 0).val < 800000 := (i 0).isLt
    have hi1 : ((i : S800000x128.Idx) 1).val < 128 := (i 1).isLt
    have hN : cfg0.N = 100 := N_0
    refine ⟨⟨((i : S800000x128.Idx) 0).val / 8000, by rw [hN]; omega⟩, flush0_7 _, ?_⟩
    rw [mem_blk7]
    obtain ⟨-, -, -, -, -, -, -, -, -, -, -, -, -, -, e14, e15⟩ := idx_facts ⟨((i : S800000x128.Idx) 0).val / 8000, by rw [hN]; omega⟩
    intro a
    match a with
    | ⟨0, _⟩ =>
      show win0_7.index _ (0 : Fin 2) * 8000 ≤ (i 0).val ∧ (i 0).val < win0_7.index _ (0 : Fin 2) * 8000 + 8000
      rw [e14]
      show (i 0).val / 8000 * 8000 ≤ (i 0).val ∧ (i 0).val < (i 0).val / 8000 * 8000 + 8000
      omega
    | ⟨1, _⟩ =>
      show win0_7.index _ (1 : Fin 2) * 128 ≤ (i 1).val ∧ (i 1).val < win0_7.index _ (1 : Fin 2) * 128 + 128
      rw [e15]
      omega

end Cert.KernelIdeal.Region0

end
-- ==== Proof.KRegion1.lean ====
/-
  The update stage's region: the array it leaves, as one function of the arrays it found.
-/
import proofs.«122438_j60619168416174_2_alg».proof.Proof.Gen.KernelIdeal.Frame
import proofs.«122438_j60619168416174_2_alg».proof.Proof.KBody
import Idealize.ShloMosaic.Lib.Pipeline.Value

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx Cert.Layer
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- The array the region leaves in the result buffer. -/
def G1 (c : Dev nD) : S50000x128.Idx → EReal :=
  stage (fun x => max x 0) (V c main_arg0) (V c main_v26) (V c main_v27) (V c main_v28) (V c main_v29) (V c main_arg8) (V c main_v30)

/-- Rows: block `t` of the node features is rows `5000 t …` of their array. -/
theorem blk0 (c : Dev nD) (t : Fin cfg1.N) (y : S5000x128.Idx) (i : S50000x128.Idx)
    (h0 : (i 0).val = t.val * 5000 + (y 0).val) (h1 : (i 1).val = (y 1).val) :
    (iblk1 V c 0 t : S5000x128.Idx → EReal) y = (V c main_arg0 : S50000x128.Idx → EReal) i := by
  obtain ⟨e0, e1, -⟩ := idx_facts t
  unfold iblk1
  rw [View.read_apply]
  show V c main_arg0 _ = V c main_arg0 _
  congr 1
  funext a; apply Fin.ext
  match a with
  | ⟨0, _⟩ => show win1_0.index t (0 : Fin 2) * 5000 + 1 * (y 0).val = (i 0).val; rw [e0, h0]; omega
  | ⟨1, _⟩ => show win1_0.index t (1 : Fin 2) * 128 + 1 * (y 1).val = (i 1).val; rw [e1, h1]; omega

/-- Rows: block `t` of the aggregated messages is rows `5000 t …` of their array. -/
theorem blk1 (c : Dev nD) (t : Fin cfg1.N) (y : S5000x128.Idx) (i : S50000x128.Idx)
    (h0 : (i 0).val = t.val * 5000 + (y 0).val) (h1 : (i 1).val = (y 1).val) :
    (iblk1 V c 1 t : S5000x128.Idx → EReal) y = (V c main_v26 : S50000x128.Idx → EReal) i := by
  obtain ⟨-, -, e2, e3, -⟩ := idx_facts t
  unfold iblk1
  rw [View.read_apply]
  show V c main_v26 _ = V c main_v26 _
  congr 1
  funext a; apply Fin.ext
  match a with
  | ⟨0, _⟩ => show win1_1.index t (0 : Fin 2) * 5000 + 1 * (y 0).val = (i 0).val; rw [e2, h0]; omega
  | ⟨1, _⟩ => show win1_1.index t (1 : Fin 2) * 128 + 1 * (y 1).val = (i 1).val; rw [e3, h1]; omega

/-- The upper half of the first weights is staged whole at every point. -/
theorem blk2 (c : Dev nD) (t : Fin cfg1.N) (y : S128x128.Idx) :
    (iblk1 V c 2 t : S128x128.Idx → EReal) y = (V c main_v27 : S128x128.Idx → EReal) y := by
  obtain ⟨-, -, -, -, e4, e5, -, -, -, -, -, -, -, -, -, -⟩ := idx_facts t
  unfold iblk1
  rw [View.read_apply]
  show V c main_v27 _ = V c main_v27 _
  congr 1
  funext a; apply Fin.ext
  match a with
  | ⟨0, _⟩ => show win1_2.index t (0 : Fin 2) * 128 + 1 * (y 0).val = (y 0).val; rw [e4]; omega
  | ⟨1, _⟩ => show win1_2.index t (1 : Fin 2) * 128 + 1 * (y 1).val = (y 1).val; rw [e5]; omega

/-- The lower half of the first weights is staged whole at every point. -/
theorem blk3 (c : Dev nD) (t : Fin cfg1.N) (y : S128x128.Idx) :
    (iblk1 V c 3 t : S128x128.Idx → EReal) y = (V c main_v28 : S128x128.Idx → EReal) y := by
  obtain ⟨-, -, -, -, -, -, e6, e7, -, -, -, -, -, -, -, -⟩ := idx_facts t
  unfold iblk1
  rw [View.read_apply]
  show V c main_v28 _ = V c main_v28 _
  congr 1
  funext a; apply Fin.ext
  match a with
  | ⟨0, _⟩ => show win1_3.index t (0 : Fin 2) * 128 + 1 * (y 0).val = (y 0).val; rw [e6]; omega
  | ⟨1, _⟩ => show win1_3.index t (1 : Fin 2) * 128 + 1 * (y 1).val = (y 1).val; rw [e7]; omega

/-- The first bias row is staged whole at every point. -/
theorem blk4 (c : Dev nD) (t : Fin cfg1.N) (y : S1x128.Idx) :
    (iblk1 V c 4 t : S1x128.Idx → EReal) y = (V c main_v29 : S1x128.Idx → EReal) y := by
  obtain ⟨-, -, -, -, -, -, -, -, e8, e9, -, -, -, -, -, -⟩ := idx_facts t
  unfold iblk1
  rw [View.read_apply]
  show V c main_v29 _ = V c main_v29 _
  congr 1
  funext a; apply Fin.ext
  match a with
  | ⟨0, _⟩ => show win1_4.index t (0 : Fin 2) * 1 + 1 * (y 0).val = (y 0).val; rw [e8]; omega
  | ⟨1, _⟩ => show win1_4.index t (1 : Fin 2) * 128 + 1 * (y 1).val = (y 1).val; rw [e9]; omega

/-- The second weights are staged whole at every point. -/
theorem blk5 (c : Dev nD) (t : Fin cfg1.N) (y : S128x128.Idx) :
    (iblk1 V c 5 t : S128x128.Idx → EReal) y = (V c main_arg8 : S128x128.Idx → EReal) y := by
  obtain ⟨-, -, -, -, -, -, -, -, -, -, e10, e11, -, -, -, -⟩ := idx_facts t
  unfold iblk1
  rw [View.read_apply]
  show V c main_arg8 _ = V c main_arg8 _
  congr 1
  funext a; apply Fin.ext
  match a with
  | ⟨0, _⟩ => show win1_5.index t (0 : Fin 2) * 128 + 1 * (y 0).val = (y 0).val; rw [e10]; omega
  | ⟨1, _⟩ => show win1_5.index t (1 : Fin 2) * 128 + 1 * (y 1).val = (y 1).val; rw [e11]; omega

/-- The second bias row is staged whole at every point. -/
theorem blk6 (c : Dev nD) (t : Fin cfg1.N) (y : S1x128.Idx) :
    (iblk1 V c 6 t : S1x128.Idx → EReal) y = (V c main_v30 : S1x128.Idx → EReal) y := by
  obtain ⟨-, -, -, -, -, -, -, -, -, -, -, -, e12, e13, -, -⟩ := idx_facts t
  unfold iblk1
  rw [View.read_apply]
  show V c main_v30 _ = V c main_v30 _
  congr 1
  funext a; apply Fin.ext
  match a with
  | ⟨0, _⟩ => show win1_6.index t (0 : Fin 2) * 1 + 1 * (y 0).val = (y 0).val; rw [e12]; omega
  | ⟨1, _⟩ => show win1_6.index t (1 : Fin 2) * 128 + 1 * (y 1).val = (y 1).val; rw [e13]; omega

/-- What point `t` computes at block position `y` is the stage's entry at the array position `i` that `y` is, when `i` is
    row `5000 t + y₀`, column `y₁`. -/
theorem point_eq (c : Dev nD) (t : Fin cfg1.N) (y : S5000x128.Idx) (i : S50000x128.Idx)
    (h0 : (i 0).val = t.val * 5000 + (y 0).val) (h1 : (i 1).val = (y 1).val) :
    k1_pay1 (F := Ideal) (iblk1 V c 0 t) (iblk1 V c 1 t) (iblk1 V c 2 t) (iblk1 V c 3 t) (iblk1 V c 5 t) (iblk1 V c 4 t)
      (iblk1 V c 6 t) y = G1 V c i := by
  obtain ⟨p, q, rfl⟩ : ∃ (p : Fin 5000) (q : Fin 128), y = ix2 p q := ⟨y 0, y 1, eq_ix2 y⟩
  obtain ⟨r, s, rfl⟩ : ∃ (r : Fin 50000) (s : Fin 128), i = ix2 r s := ⟨i 0, i 1, eq_ix2 i⟩
  have hr : r.val = t.val * 5000 + p.val := h0
  obtain rfl : s = q := Fin.ext h1
  refine (Body.pay1_apply (iblk1 V c 0 t) (iblk1 V c 1 t) (iblk1 V c 2 t) (iblk1 V c 3 t) (iblk1 V c 5 t) (iblk1 V c 4 t)
    (iblk1 V c 6 t) p s).trans ?_
  show _ = max (out (row (V c main_arg0) r) (row (V c main_v26) r) (fun j k => V c main_v27 (ix2 j k)) (fun j k => V c main_v28 (ix2 j k))
    (fun k => V c main_v29 (ix2 0 k)) (fun k c' => V c main_arg8 (ix2 k c')) (fun c' => V c main_v30 (ix2 0 c')) s) 0
  exact congrArg (fun x => max x 0) (out_congr (funext fun j => blk0 V c t (ix2 p j) (ix2 r j) hr rfl) (funext fun j => blk1 V c t (ix2 p j) (ix2 r j) hr rfl)
    (funext fun j => funext fun k => blk2 V c t (ix2 j k)) (funext fun j => funext fun k => blk3 V c t (ix2 j k))
    (funext fun k => blk4 V c t (ix2 0 k)) (funext fun k => funext fun c' => blk5 V c t (ix2 k c'))
    (funext fun c' => blk6 V c t (ix2 0 c')) s)

theorem flushed1 (c : Dev nD) (t : Fin cfg1.N) :
    (dat1 V c).flushed 7 t = ((cfg1.win 7).blk t).view.read (Elt Ideal) (G1 V c) := by
  show (cfg1.win 7).cut (grid1.coords t) ((dat1 V c).after 7 t) = _
  rw [after1_7]
  unfold out1_7
  rw [View.canon_unit_zero hz]
  simp only [View.ld_unit_zero (S := S5000x128) hz, View.ld_unit_zero (S := S128x128) hz, View.ld_unit_zero (S := S1x128) hz]
  funext j
  rw [View.read_apply]
  obtain ⟨-, -, -, -, -, -, -, -, -, -, -, -, -, -, e14, e15⟩ := idx_facts t
  exact point_eq V c t j _
    (by show win1_7.index t (0 : Fin 2) * 5000 + 1 * (j 0).val = t.val * 5000 + (j 0).val; rw [e14]; omega)
    (by show win1_7.index t (1 : Fin 2) * 128 + 1 * (j 1).val = (j 1).val; rw [e15]; omega)

/-- An index of the result array lies in point `t`'s block iff each coordinate lies in the block's range on its axis. -/
theorem mem_blk7 (t : Fin cfg1.N) (i : S50000x128.Idx) :
    i ∈ ((cfg1.win 7).blk t).view.set ↔ ∀ a : Fin 2, win1_7.index t a * S5000x128.size a ≤ (i a).val
      ∧ (i a).val < win1_7.index t a * S5000x128.size a + S5000x128.size a := by
  show i ∈ ((View.whole main_v31).slice (win1_7.rect t)).set ↔ _
  rw [View.set_slice_whole, Rect.mem_set_unit]
  exact Iff.rfl

/-- The result array after the region: every row lies in the block of the point that is its number divided by 5000, so the
    write-backs cover the array and it holds the stage of the arrays the region found. -/
theorem final1 (c : Dev nD) : (dat1 V c).arrAt 7 cfg1.N = G1 V c :=
  (dat1 V c).arrAt_eq_of_cover 7 (G1 V c) (fun t _ => flushed1 V c t) fun i => by
    have hi0 : ((i : S50000x128.Idx) 0).val < 50000 := (i 0).isLt
    have hi1 : ((i : S50000x128.Idx) 1).val < 128 := (i 1).isLt
    have hN : cfg1.N = 10 := N_1
    refine ⟨⟨((i : S50000x128.Idx) 0).val / 5000, by rw [hN]; omega⟩, flush1_7 _, ?_⟩
    rw [mem_blk7]
    obtain ⟨-, -, -, -, -, -, -, -, -, -, -, -, -, -, e14, e15⟩ := idx_facts ⟨((i : S50000x128.Idx) 0).val / 5000, by rw [hN]; omega⟩
    intro a
    match a with
    | ⟨0, _⟩ =>
      show win1_7.index _ (0 : Fin 2) * 5000 ≤ (i 0).val ∧ (i 0).val < win1_7.index _ (0 : Fin 2) * 5000 + 5000
      rw [e14]
      show (i 0).val / 5000 * 5000 ≤ (i 0).val ∧ (i 0).val < (i 0).val / 5000 * 5000 + 5000
      omega
    | ⟨1, _⟩ =>
      show win1_7.index _ (1 : Fin 2) * 128 ≤ (i 1).val ∧ (i 1).val < win1_7.index _ (1 : Fin 2) * 128 + 128
      rw [e15]
      omega

end Cert.KernelIdeal.Region1

end
-- ==== Proof.KHost.lean ====
/-
  The kernel program's host side, and its result as a function of the arguments.

  Before the message region the host cuts the edge list into its row of sources and its row of targets, wraps negative
  node numbers round by the node count, gathers the rows of the (format-changed) node features at the sources and at the
  targets, cuts the first message weights into their upper and lower 128 rows and lays the two bias vectors out as one-row
  matrices.  Between the regions it adds every message into the row of its target node, starting from zeros, and prepares the
  update weights the same way.  Each region's array is the stage of `Layer` applied to what the region finds, so the
  result is
      layer (max · 0) x (scatter-add of (layer id x[src] x[tgt] mW1 mb1 mW2 mb2) at tgt) uW1 ub1 uW2 ub2.
-/
import proofs.«122438_j60619168416174_2_alg».proof.Proof.Gen.KernelIdeal.Frame
import proofs.«122438_j60619168416174_2_alg».proof.Proof.KRegion0
import proofs.«122438_j60619168416174_2_alg».proof.Proof.KRegion1
import Idealize.ShloMosaic.Lib.StableHlo.Run
import Idealize.ShloMosaic.Lib.ValueLayout

set_option maxRecDepth 16384

noncomputable section

namespace Cert.KernelIdeal.Host

open Cert.KernelIdeal Cert.KernelIdeal.Gen Idealize.ShloMosaic Idealize.ShloMosaic.TcCoe Idealize.SL.Sem
open Idealize.ShloMosaic.ValueIdx Idealize.ShloMosaic.StableHlo Cert.Layer

/-! ## The host operations, as functions of their operands -/

/-- Row `0` (the sources) or row `1` (the targets) of the edge list, as a vector. -/
def edgeRow (x1 : (⟨S2x800000, .i32⟩ : BufTy).Contents (Elt Ideal)) : (⟨S800000, .i32⟩ : BufTy).Contents (Elt Ideal) :=
  shapeCast _ (extractStridedSlice S1x800000 ![0, 0] x1 slices_S2x800000_S1x800000_0_0) shapeCasts_S1x800000_S800000
def edgeCol (x1 : (⟨S2x800000, .i32⟩ : BufTy).Contents (Elt Ideal)) : (⟨S800000, .i32⟩ : BufTy).Contents (Elt Ideal) :=
  shapeCast _ (extractStridedSlice S1x800000 ![1, 0] x1 slices_S2x800000_S1x800000_1_0) shapeCasts_S1x800000_S800000

/-- Node numbers with the negative ones wrapped round by the node count, as a column. -/
def wrapped (e : (⟨S800000, .i32⟩ : BufTy).Contents (Elt Ideal)) : (⟨S800000x1, .i32⟩ : BufTy).Contents (Elt Ideal) :=
  broadcastInDim S800000x1 ![0] bcast_S800000_S800000x1_0
    (select (cmpi .slt e (broadcastInDim S800000 ![] bcast_S_S800000 (constantI S_ 32 0#32)))
      (addi e (broadcastInDim S800000 ![] bcast_S_S800000 (constantI S_ 32 50000#32))) e)

/-- The rows of `x` at the wrapped node numbers. -/
def rowsAt (x : S50000x128.Idx → EReal) (e : (⟨S800000, .i32⟩ : BufTy).Contents (Elt Ideal)) : S800000x128.Idx → EReal :=
  Host.gather gather_S50000x128_S800000x1_S800000x128_1_0_n_n_0_1_1128 x (wrapped e)

/-- Every message added into the row of its target node, from zeros. -/
def summedAt (e : (⟨S800000, .i32⟩ : BufTy).Contents (Elt Ideal)) (M : S800000x128.Idx → EReal) : S50000x128.Idx → EReal :=
  Host.scatterAdd (F := Ideal) (φ := .f32) scatter_S50000x128_S800000x1_S800000x128_1_0_0_1
    (broadcastInDim S50000x128 ![] bcast_S_S50000x128 (constant (F := Ideal) S_ .f32 0x00000000#32))
    (broadcastInDim S800000x1 ![0] bcast_S800000_S800000x1_0 e) M

/-- The network's result as a function of the ten arguments. -/
def value (x0 : S50000x128.Idx → EReal) (x1 : (⟨S2x800000, .i32⟩ : BufTy).Contents (Elt Ideal)) (x2 : S256x128.Idx → EReal)
    (x3 : S128.Idx → EReal) (x4 : S128x128.Idx → EReal) (x5 : S128.Idx → EReal) (x6 : S256x128.Idx → EReal)
    (x7 : S128.Idx → EReal) (x8 : S128x128.Idx → EReal) (x9 : S128.Idx → EReal) : S50000x128.Idx → EReal :=
  layer (fun x => max x 0) x0
    (summedAt (edgeCol x1) (layer id (rowsAt x0 (edgeRow x1)) (rowsAt x0 (edgeCol x1)) x2 x3 x4 x5)) x6 x7 x8 x9

variable (m : (ℓ : Loc nD τ sig) → Buf (Elt Ideal) ℓ) (ρ : Dev nD → PrngReg) (c : Dev nD)

/-! ## What the message region finds -/

theorem V1_v3 : V1 m ρ c main_v3 = edgeCol (m ((c : Thread nD τ).loc main_arg1)) := by
  show StableHlo.after hostOps0 (W0 m ρ c) (Proc.devRef .tc main_v3) = _
  after_results_simp <;> rfl

theorem V1_v11 : V1 m ρ c main_v11
    = rowsAt (m ((c : Thread nD τ).loc main_arg0)) (edgeRow (m ((c : Thread nD τ).loc main_arg1))) := by
  show StableHlo.after hostOps0 (W0 m ρ c) (Proc.devRef .tc main_v11) = _
  after_results_simp <;> rfl

theorem V1_v18 : V1 m ρ c main_v18
    = rowsAt (m ((c : Thread nD τ).loc main_arg0)) (edgeCol (m ((c : Thread nD τ).loc main_arg1))) := by
  show StableHlo.after hostOps0 (W0 m ρ c) (Proc.devRef .tc main_v18) = _
  after_results_simp <;> rfl

theorem V1_v19 : V1 m ρ c main_v19
    = extractStridedSlice S128x128 ![0, 0] (m ((c : Thread nD τ).loc main_arg2)) slices_S256x128_S128x128_0_0 := by
  show StableHlo.after hostOps0 (W0 m ρ c) (Proc.devRef .tc main_v19) = _
  after_results_simp <;> rfl

theorem V1_v20 : V1 m ρ c main_v20
    = extractStridedSlice S128x128 ![128, 0] (m ((c : Thread nD τ).loc main_arg2)) slices_S256x128_S128x128_128_0 := by
  show StableHlo.after hostOps0 (W0 m ρ c) (Proc.devRef .tc main_v20) = _
  after_results_simp <;> rfl

theorem V1_v21 : V1 m ρ c main_v21 = shapeCast S1x128 (m ((c : Thread nD τ).loc main_arg3)) shapeCasts_S128_S1x128 := by
  show StableHlo.after hostOps0 (W0 m ρ c) (Proc.devRef .tc main_v21) = _
  after_results_simp <;> rfl

theorem V1_v22 : V1 m ρ c main_v22 = shapeCast S1x128 (m ((c : Thread nD τ).loc main_arg5)) shapeCasts_S128_S1x128 := by
  show StableHlo.after hostOps0 (W0 m ρ c) (Proc.devRef .tc main_v22) = _
  after_results_simp <;> rfl

theorem V1_arg4 : V1 m ρ c main_arg4 = m ((c : Thread nD τ).loc main_arg4) := by
  show StableHlo.after hostOps0 (W0 m ρ c) (Proc.devRef .tc main_arg4) = _
  after_results_simp <;> rfl

/-- The messages: the first region's array is the stage of the gathered rows and the message weights. -/
theorem messages_eq : Region0.G0 (V1 m ρ) c
    = layer id (rowsAt (m ((c : Thread nD τ).loc main_arg0)) (edgeRow (m ((c : Thread nD τ).loc main_arg1))))
        (rowsAt (m ((c : Thread nD τ).loc main_arg0)) (edgeCol (m ((c : Thread nD τ).loc main_arg1))))
        (m ((c : Thread nD τ).loc main_arg2)) (m ((c : Thread nD τ).loc main_arg3)) (m ((c : Thread nD τ).loc main_arg4))
        (m ((c : Thread nD τ).loc main_arg5)) := by
  unfold Region0.G0
  rw [V1_v11, V1_v18, V1_v19, V1_v20, V1_v21, V1_arg4, V1_v22]
  exact stage_eq_layer id _ _ _ _ _ _ _ (m ((c : Thread nD τ).loc main_arg2)) (m ((c : Thread nD τ).loc main_arg3))
    (m ((c : Thread nD τ).loc main_arg5))
    (fun j k => slice2_axis0_apply 0 _ _ j k (Fin.castAdd 128 j) (by rw [Fin.coe_castAdd, Nat.zero_add]))
    (fun j k => slice2_axis0_apply 128 _ _ j k (Fin.natAdd 128 j) (Fin.coe_natAdd 128 j))
    (fun k => shapeCast_a_1a_apply _ _ 0 k) (fun k => shapeCast_a_1a_apply _ _ 0 k)

/-! ## What the update region finds -/

theorem V3_arg0 : V3 m ρ c main_arg0 = m ((c : Thread nD τ).loc main_arg0) := by
  show StableHlo.after hostOps1 (W2 m ρ c) (Proc.devRef .tc main_arg0) = _
  after_results
  rw [W2_of_ne m ρ c main_arg0 (by decide)]
  show StableHlo.after hostOps0 (W0 m ρ c) (Proc.devRef .tc main_arg0) = _
  after_results_simp <;> rfl

theorem V3_arg8 : V3 m ρ c main_arg8 = m ((c : Thread nD τ).loc main_arg8) := by
  show StableHlo.after hostOps1 (W2 m ρ c) (Proc.devRef .tc main_arg8) = _
  after_results
  rw [W2_of_ne m ρ c main_arg8 (by decide)]
  show StableHlo.after hostOps0 (W0 m ρ c) (Proc.devRef .tc main_arg8) = _
  after_results_simp <;> rfl

theorem V3_v26 : V3 m ρ c main_v26
    = summedAt (edgeCol (m ((c : Thread nD τ).loc main_arg1))) (Region0.G0 (V1 m ρ) c) := by
  show StableHlo.after hostOps1 (W2 m ρ c) (Proc.devRef .tc main_v26) = _
  after_results
  rw [W2_of_ne m ρ c main_v3 (by decide), show W2 m ρ c (Proc.devRef .tc main_v23) = _ from W2_arr m ρ c 7, Region0.final0,
    show W1 m ρ c (Proc.devRef .tc main_v3) = _ from V1_v3 m ρ c]
  rfl

theorem V3_v27 : V3 m ρ c main_v27
    = extractStridedSlice S128x128 ![0, 0] (m ((c : Thread nD τ).loc main_arg6)) slices_S256x128_S128x128_0_0 := by
  show StableHlo.after hostOps1 (W2 m ρ c) (Proc.devRef .tc main_v27) = _
  after_results
  rw [W2_of_ne m ρ c main_arg6 (by decide)]
  show extractStridedSlice S128x128 ![0, 0] (StableHlo.after hostOps0 (W0 m ρ c) (Proc.devRef .tc main_arg6)) _ = _
  after_results_simp <;> rfl

theorem V3_v28 : V3 m ρ c main_v28
    = extractStridedSlice S128x128 ![128, 0] (m ((c : Thread nD τ).loc main_arg6)) slices_S256x128_S128x128_128_0 := by
  show StableHlo.after hostOps1 (W2 m ρ c) (Proc.devRef .tc main_v28) = _
  after_results
  rw [W2_of_ne m ρ c main_arg6 (by decide)]
  show extractStridedSlice S128x128 ![128, 0] (StableHlo.after hostOps0 (W0 m ρ c) (Proc.devRef .tc main_arg6)) _ = _
  after_results_simp <;> rfl

theorem V3_v29 : V3 m ρ c main_v29 = shapeCast S1x128 (m ((c : Thread nD τ).loc main_arg7)) shapeCasts_S128_S1x128 := by
  show StableHlo.after hostOps1 (W2 m ρ c) (Proc.devRef .tc main_v29) = _
  after_results
  rw [W2_of_ne m ρ c main_arg7 (by decide)]
  show shapeCast S1x128 (StableHlo.after hostOps0 (W0 m ρ c) (Proc.devRef .tc main_arg7)) _ = _
  after_results_simp <;> rfl

theorem V3_v30 : V3 m ρ c main_v30 = shapeCast S1x128 (m ((c : Thread nD τ).loc main_arg9)) shapeCasts_S128_S1x128 := by
  show StableHlo.after hostOps1 (W2 m ρ c) (Proc.devRef .tc main_v30) = _
  after_results
  rw [W2_of_ne m ρ c main_arg9 (by decide)]
  show shapeCast S1x128 (StableHlo.after hostOps0 (W0 m ρ c) (Proc.devRef .tc main_arg9)) _ = _
  after_results_simp <;> rfl

/-! ## The result -/

/-- The result buffer after the run. -/
theorem result_eq : W4 m ρ c (Proc.devRef .tc main_v31)
    = layer (fun x => max x 0) (m ((c : Thread nD τ).loc main_arg0))
        (summedAt (edgeCol (m ((c : Thread nD τ).loc main_arg1)))
          (layer id (rowsAt (m ((c : Thread nD τ).loc main_arg0)) (edgeRow (m ((c : Thread nD τ).loc main_arg1))))
            (rowsAt (m ((c : Thread nD τ).loc main_arg0)) (edgeCol (m ((c : Thread nD τ).loc main_arg1))))
            (m ((c : Thread nD τ).loc main_arg2)) (m ((c : Thread nD τ).loc main_arg3)) (m ((c : Thread nD τ).loc main_arg4))
            (m ((c : Thread nD τ).loc main_arg5))))
        (m ((c : Thread nD τ).loc main_arg6)) (m ((c : Thread nD τ).loc main_arg7)) (m ((c : Thread nD τ).loc main_arg8))
        (m ((c : Thread nD τ).loc main_arg9)) := by
  rw [show W4 m ρ c (Proc.devRef .tc main_v31) = _ from W4_arr m ρ c 7, Region1.final1]
  unfold Region1.G1
  rw [V3_arg0, V3_v26, V3_v27, V3_v28, V3_v29, V3_arg8, V3_v30, messages_eq]
  exact stage_eq_layer _ _ _ _ _ _ _ _ (m ((c : Thread nD τ).loc main_arg6)) (m ((c : Thread nD τ).loc main_arg7))
    (m ((c : Thread nD τ).loc main_arg9))
    (fun j k => slice2_axis0_apply 0 _ _ j k (Fin.castAdd 128 j) (by rw [Fin.coe_castAdd, Nat.zero_add]))
    (fun j k => slice2_axis0_apply 128 _ _ j k (Fin.natAdd 128 j) (Fin.coe_natAdd 128 j))
    (fun k => shapeCast_a_1a_apply _ _ 0 k) (fun k => shapeCast_a_1a_apply _ _ 0 k)

/-- The same, with the function named. -/
theorem result_value : W4 m ρ c (Proc.devRef .tc main_v31)
    = value (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) :=
  result_eq m ρ c

end Cert.KernelIdeal.Host

end
-- ==== Proof.HostStage.lean ====
/-
  The stage as plain jnp lowers it, read at an entry.

  `concatenate([A, B], axis = 1) @ W1 + b1`, clamped at zero from below, `@ W2 + b2`: the host forms the joined 256-long rows
  and contracts them with the whole of `W1` in one `dot_general`.  At the ideal values an entry of that product is a sum
  over `Fin 256`, which splits at 128 into the sum over `A`'s row against the upper rows of `W1` and the sum over `B`'s row
  against the lower rows (`Layer.joined_sum`); the biases are a vector laid along a unit axis and repeated down the rows.  So
  the host's array is `Layer.layer` of the same operands, whatever the number of rows.
-/
import proofs.«122438_j60619168416174_2_alg».proof.Proof.Layer
import proofs.«122438_j60619168416174_2_alg».proof.Proof.LibPlainMatmul
import Idealize.ShloMosaic.Lib.Pipeline.Value
import Idealize.ShloMosaic.Lib.ValueIdx

noncomputable section

namespace Cert.HostStage

open Idealize.ShloMosaic Idealize.ShloMosaic.ValueIdx Cert.Layer Cert.PlainMatmul

variable {n : ℕ}
  (wf1 : DotDims.WF (⟨2, ![n, 256]⟩ : Shape) (⟨2, ![256, 128]⟩ : Shape) (⟨2, ![n, 128]⟩ : Shape) [1] [0] [0] [1] [] [])
  (wf2 : DotDims.WF (⟨2, ![n, 128]⟩ : Shape) (⟨2, ![128, 128]⟩ : Shape) (⟨2, ![n, 128]⟩ : Shape) [1] [0] [0] [1] [] [])
  (hcat : Shape.Concatenates [(⟨2, ![n, 128]⟩ : Shape), (⟨2, ![n, 128]⟩ : Shape)] (⟨2, ![n, 256]⟩ : Shape) 1)
  (hrow : (⟨1, ![128]⟩ : Shape).BroadcastsInDim (⟨2, ![1, 128]⟩ : Shape) (![1] : Fin 1 → Fin 2))
  (hrows : (⟨2, ![1, 128]⟩ : Shape).BroadcastsInDim (⟨2, ![n, 128]⟩ : Shape) (![0, 1] : Fin 2 → Fin 2))
  (hzero : (⟨0, ![]⟩ : Shape).BroadcastsInDim (⟨2, ![n, 128]⟩ : Shape) (![] : Fin 0 → Fin 2))

/-- A bias vector laid along a unit axis and repeated down the rows reads, at (r, c), its entry c. -/
theorem bias_apply {α : Type} (b : (⟨1, ![128]⟩ : Shape).Idx → α) (r : Fin n) (c : Fin 128) :
    broadcastInDim (⟨2, ![n, 128]⟩ : Shape) ![0, 1] hrows (broadcastInDim (⟨2, ![1, 128]⟩ : Shape) ![1] hrow b) (ix2 r c)
      = b (ix1 c) := by
  rw [broadcastInDim_apply _ hrows _ (ix2 r c) (ix2 (0 : Fin 1) c) (fun a => match a with
    | ⟨0, _⟩ => by show 0 = if (1 : Nat) = 1 then 0 else r.val; rw [if_pos rfl]
    | ⟨1, _⟩ => by show c.val = if (128 : Nat) = 1 then 0 else c.val; rw [if_neg (by decide)])]
  exact broadcastInDim_apply _ hrow b (ix2 (0 : Fin 1) c) (ix1 c) (fun a => match a with
    | ⟨0, _⟩ => by show c.val = if (128 : Nat) = 1 then 0 else c.val; rw [if_neg (by decide)])

/-- The zero the clamp compares with: the f32 zero pattern repeated over the array is the extended real 0 everywhere. -/
theorem zero_apply (i : (⟨2, ![n, 128]⟩ : Shape).Idx) :
    broadcastInDim (⟨2, ![n, 128]⟩ : Shape) ![] hzero (constant (F := Ideal) (⟨0, ![]⟩ : Shape) .f32 0x00000000#32) i = 0 := by
  rw [broadcastInDim_apply _ hzero _ i ix0 (fun a => a.elim0)]
  exact Ideal.ofBits_zero_f32

/-- Below 128 a joined row reads the first piece. -/
theorem cat_left {α : Type} (A B : (⟨2, ![n, 128]⟩ : Shape).Idx → α) (r : Fin n) (j : Fin 128) :
    concatenate (⟨2, ![n, 256]⟩ : Shape) 1 [⟨(⟨2, ![n, 128]⟩ : Shape), A⟩, ⟨(⟨2, ![n, 128]⟩ : Shape), B⟩] hcat
      (ix2 r (Fin.castAdd 128 j)) = A (ix2 r j) :=
  concatenate_pair_apply_left 1 A B hcat _ rfl (ix2 r j) (fun b => match b with
    | ⟨0, _⟩ => rfl
    | ⟨1, _⟩ => rfl)

/-- From 128 on it reads the second piece, 128 positions back. -/
theorem cat_right {α : Type} (A B : (⟨2, ![n, 128]⟩ : Shape).Idx → α) (r : Fin n) (j : Fin 128) :
    concatenate (⟨2, ![n, 256]⟩ : Shape) 1 [⟨(⟨2, ![n, 128]⟩ : Shape), A⟩, ⟨(⟨2, ![n, 128]⟩ : Shape), B⟩] hcat
      (ix2 r (Fin.natAdd 128 j)) = B (ix2 r j) :=
  concatenate_pair_apply_right 1 A B hcat _ rfl rfl (ix2 r j) (fun b hb => match b with
    | ⟨0, _⟩ => rfl
    | ⟨1, _⟩ => absurd rfl hb)
    (by show j.val + 128 = 128 + j.val; omega)

/-- The stage as the host computes it. -/
def hostStage (A B : FVec Ideal (⟨2, ![n, 128]⟩ : Shape) .f32) (W1 : FVec Ideal (⟨2, ![256, 128]⟩ : Shape) .f32)
    (b1 : FVec Ideal (⟨1, ![128]⟩ : Shape) .f32) (W2 : FVec Ideal (⟨2, ![128, 128]⟩ : Shape) .f32)
    (b2 : FVec Ideal (⟨1, ![128]⟩ : Shape) .f32) : FVec Ideal (⟨2, ![n, 128]⟩ : Shape) .f32 :=
  addf (Host.dotGeneral (plain wf2) none
      (maximumf
        (addf
          (Host.dotGeneral (plain wf1) none
            (concatenate (⟨2, ![n, 256]⟩ : Shape) 1 [⟨(⟨2, ![n, 128]⟩ : Shape), A⟩, ⟨(⟨2, ![n, 128]⟩ : Shape), B⟩] hcat) W1)
          (broadcastInDim (⟨2, ![n, 128]⟩ : Shape) ![0, 1] hrows (broadcastInDim (⟨2, ![1, 128]⟩ : Shape) ![1] hrow b1)))
        (broadcastInDim (⟨2, ![n, 128]⟩ : Shape) ![] hzero (constant (⟨0, ![]⟩ : Shape) .f32 0x00000000#32)))
      W2)
    (broadcastInDim (⟨2, ![n, 128]⟩ : Shape) ![0, 1] hrows (broadcastInDim (⟨2, ![1, 128]⟩ : Shape) ![1] hrow b2))

/-- Its entry (r, c) is output unit c of row r. -/
theorem hostStage_apply (A B : FVec Ideal (⟨2, ![n, 128]⟩ : Shape) .f32) (W1 : FVec Ideal (⟨2, ![256, 128]⟩ : Shape) .f32)
    (b1 : FVec Ideal (⟨1, ![128]⟩ : Shape) .f32) (W2 : FVec Ideal (⟨2, ![128, 128]⟩ : Shape) .f32)
    (b2 : FVec Ideal (⟨1, ![128]⟩ : Shape) .f32) (r : Fin n) (c : Fin 128) :
    hostStage wf1 wf2 hcat hrow hrows hzero A B W1 b1 W2 b2 (ix2 r c)
      = out (row A r) (row B r) (upper W1) (lower W1) (fun k => b1 (ix1 k)) (fun k c => W2 (ix2 k c)) (fun c => b2 (ix1 c)) c := by
  unfold hostStage
  simp only [Host.dotGeneral, addf_apply, maximumf_apply, PlainMatmul.dotGeneral_apply, joined_sum, cat_left, cat_right]
  rw [bias_apply hrow hrows b2 r c]
  refine congrArg (· + b2 (ix1 c)) (Finset.sum_congr rfl fun k _ => ?_)
  rw [bias_apply hrow hrows b1 r k, zero_apply hzero (ix2 r k)]
  rfl

/-- The host's array is the stage on whole arrays. -/
theorem hostStage_eq (A B : FVec Ideal (⟨2, ![n, 128]⟩ : Shape) .f32) (W1 : FVec Ideal (⟨2, ![256, 128]⟩ : Shape) .f32)
    (b1 : FVec Ideal (⟨1, ![128]⟩ : Shape) .f32) (W2 : FVec Ideal (⟨2, ![128, 128]⟩ : Shape) .f32)
    (b2 : FVec Ideal (⟨1, ![128]⟩ : Shape) .f32) :
    hostStage wf1 wf2 hcat hrow hrows hzero A B W1 b1 W2 b2 = layer id A B W1 b1 W2 b2 := by
  funext i
  obtain ⟨r, c, rfl⟩ : ∃ (r : Fin n) (c : Fin 128), i = ix2 r c := ⟨i 0, i 1, eq_ix2 i⟩
  rw [hostStage_apply, layer_apply]
  rfl

/-- Clamped once more at zero from below, it is the stage with the clamp as its last step. -/
theorem hostStage_relu_eq (A B : FVec Ideal (⟨2, ![n, 128]⟩ : Shape) .f32) (W1 : FVec Ideal (⟨2, ![256, 128]⟩ : Shape) .f32)
    (b1 : FVec Ideal (⟨1, ![128]⟩ : Shape) .f32) (W2 : FVec Ideal (⟨2, ![128, 128]⟩ : Shape) .f32)
    (b2 : FVec Ideal (⟨1, ![128]⟩ : Shape) .f32) :
    maximumf (hostStage wf1 wf2 hcat hrow hrows hzero A B W1 b1 W2 b2)
        (broadcastInDim (⟨2, ![n, 128]⟩ : Shape) ![] hzero (constant (⟨0, ![]⟩ : Shape) .f32 0x00000000#32))
      = layer (fun x => max x 0) A B W1 b1 W2 b2 := by
  funext i
  obtain ⟨r, c, rfl⟩ : ∃ (r : Fin n) (c : Fin 128), i = ix2 r c := ⟨i 0, i 1, eq_ix2 i⟩
  rw [maximumf_apply, hostStage_apply, zero_apply, layer_apply]

end Cert.HostStage

end
-- ==== Proof.RefValue.lean ====
/-
  The reference's result as a function of the arguments.

  jnp computes the same network with the rows joined: `concatenate([x[src], x[tgt]]) @ mW1 + mb1`, clamped, `@ mW2 + mb2` for
  the messages, a scatter-add of the messages at the targets, and `concatenate([x, agg]) @ uW1 + ub1`, clamped, `@ uW2 + ub2`,
  clamped, for the update.  Both joined stages are `Layer.layer` (`HostStage`), so the result is
      layer (max · 0) x (scatter-add of (layer id x[src] x[tgt] mW1 mb1 mW2 mb2) at tgt) uW1 ub1 uW2 ub2.
-/
import proofs.«122438_j60619168416174_2_alg».proof.Proof.Gen.ReferenceIdeal.Run
import proofs.«122438_j60619168416174_2_alg».proof.Proof.HostStage

noncomputable section

namespace Cert.ReferenceIdeal.Ref

open Cert.ReferenceIdeal Cert.ReferenceIdeal.Gen Idealize.ShloMosaic Idealize.ShloMosaic.TcCoe Idealize.SL.Sem
open Idealize.ShloMosaic.ValueIdx Cert.Layer Cert.HostStage

/-- Row `0` (the sources) or row `1` (the targets) of the edge list, as a vector. -/
def edgeRow (x1 : (⟨S2x800000, .i32⟩ : BufTy).Contents (Elt Ideal)) : (⟨S800000, .i32⟩ : BufTy).Contents (Elt Ideal) :=
  shapeCast _ (extractStridedSlice S1x800000 ![0, 0] x1 slices_S2x800000_S1x800000_0_0) shapeCasts_S1x800000_S800000
def edgeCol (x1 : (⟨S2x800000, .i32⟩ : BufTy).Contents (Elt Ideal)) : (⟨S800000, .i32⟩ : BufTy).Contents (Elt Ideal) :=
  shapeCast _ (extractStridedSlice S1x800000 ![1, 0] x1 slices_S2x800000_S1x800000_1_0) shapeCasts_S1x800000_S800000

/-- Node numbers with the negative ones wrapped round by the node count, as a column. -/
def wrapped (e : (⟨S800000, .i32⟩ : BufTy).Contents (Elt Ideal)) : (⟨S800000x1, .i32⟩ : BufTy).Contents (Elt Ideal) :=
  broadcastInDim S800000x1 ![0] bcast_S800000_S800000x1_0
    (select (cmpi .slt e (broadcastInDim S800000 ![] bcast_S_S800000 (constantI S_ 32 0#32)))
      (addi e (broadcastInDim S800000 ![] bcast_S_S800000 (constantI S_ 32 50000#32))) e)

/-- The rows of `x` at the wrapped node numbers. -/
def rowsAt (x : S50000x128.Idx → EReal) (e : (⟨S800000, .i32⟩ : BufTy).Contents (Elt Ideal)) : S800000x128.Idx → EReal :=
  Host.gather gather_S50000x128_S800000x1_S800000x128_1_0_n_n_0_1_1128 x (wrapped e)

/-- Every message added into the row of its target node, from zeros. -/
def summedAt (e : (⟨S800000, .i32⟩ : BufTy).Contents (Elt Ideal)) (M : S800000x128.Idx → EReal) : S50000x128.Idx → EReal :=
  Host.scatterAdd (F := Ideal) (φ := .f32) scatter_S50000x128_S800000x1_S800000x128_1_0_0_1
    (broadcastInDim S50000x128 ![] bcast_S_S50000x128 (constant (F := Ideal) S_ .f32 0x00000000#32))
    (broadcastInDim S800000x1 ![0] bcast_S800000_S800000x1_0 e) M

/-- The network's result as a function of the ten arguments. -/
def value (x0 : S50000x128.Idx → EReal) (x1 : (⟨S2x800000, .i32⟩ : BufTy).Contents (Elt Ideal)) (x2 : S256x128.Idx → EReal)
    (x3 : S128.Idx → EReal) (x4 : S128x128.Idx → EReal) (x5 : S128.Idx → EReal) (x6 : S256x128.Idx → EReal)
    (x7 : S128.Idx → EReal) (x8 : S128x128.Idx → EReal) (x9 : S128.Idx → EReal) : S50000x128.Idx → EReal :=
  layer (fun x => max x 0) x0
    (summedAt (edgeCol x1) (layer id (rowsAt x0 (edgeRow x1)) (rowsAt x0 (edgeCol x1)) x2 x3 x4 x5)) x6 x7 x8 x9

variable (x0 : FVec Ideal S50000x128 .f32) (x1 : (⟨S2x800000, .i32⟩ : BufTy).Contents (Elt Ideal))
  (x2 : FVec Ideal S256x128 .f32) (x3 : FVec Ideal S128 .f32) (x4 : FVec Ideal S128x128 .f32) (x5 : FVec Ideal S128 .f32)
  (x6 : FVec Ideal S256x128 .f32) (x7 : FVec Ideal S128 .f32) (x8 : FVec Ideal S128x128 .f32) (x9 : FVec Ideal S128 .f32)

/-- The messages as the host computes them. -/
def messages : FVec Ideal S800000x128 .f32 :=
  hostStage dot_S800000x256_S256x128_S800000x128_1_0_0_1_n_n_wf dot_S800000x128_S128x128_S800000x128_1_0_0_1_n_n_wf
    concatenates_S800000x128_S800000x128_S800000x256_d1 bcast_S128_S1x128_1 bcast_S1x128_S800000x128_0_1 bcast_S_S800000x128
    (rowsAt x0 (edgeRow x1)) (rowsAt x0 (edgeCol x1)) x2 x3 x4 x5

/-- The result as the host computes it. -/
def result : FVec Ideal S50000x128 .f32 :=
  maximumf
    (hostStage dot_S50000x256_S256x128_S50000x128_1_0_0_1_n_n_wf dot_S50000x128_S128x128_S50000x128_1_0_0_1_n_n_wf
      concatenates_S50000x128_S50000x128_S50000x256_d1 bcast_S128_S1x128_1 bcast_S1x128_S50000x128_0_1 bcast_S_S50000x128
      x0 (summedAt (edgeCol x1) (messages x0 x1 x2 x3 x4 x5)) x6 x7 x8 x9)
    (broadcastInDim S50000x128 ![] bcast_S_S50000x128 (constant S_ .f32 0x00000000#32))

/-- In the split form. -/
theorem result_eq : result x0 x1 x2 x3 x4 x5 x6 x7 x8 x9
    = layer (fun x => max x 0) x0
        (summedAt (edgeCol x1) (layer id (rowsAt x0 (edgeRow x1)) (rowsAt x0 (edgeCol x1)) x2 x3 x4 x5)) x6 x7 x8 x9 := by
  unfold result messages
  rw [hostStage_relu_eq, hostStage_eq]

/-- The same, with the function named. -/
theorem result_value : result x0 x1 x2 x3 x4 x5 x6 x7 x8 x9 = value x0 x1 x2 x3 x4 x5 x6 x7 x8 x9 :=
  result_eq x0 x1 x2 x3 x4 x5 x6 x7 x8 x9

end Cert.ReferenceIdeal.Ref

end
-- ==== Proof.lean ====
/-
  A graph network's message-passing step, kernel against jnp, on the extended reals.

  Both programs gather the node features at each edge's source and target, run a two-layer perceptron on the joined pair
  (the messages), add every message into its target node's row, and run a second two-layer perceptron on each node's
  features joined with what it received, clamping the result at zero from below.  The kernel computes each perceptron in a
  tiled region that contracts the two halves of the joined row with the upper and lower halves of the first weights and adds
  the two products; jnp joins the rows and contracts once.  A sum over the 256 joined positions is the sum over the first 128
  plus the sum over the last 128 (addition of extended reals is commutative and associative, infinities included), so the
  two are one function of the arguments: `Cert.KernelIdeal.Host.value`, the kernel's result by `Host.result_value` and
  the reference's by `Ref.result_value`; the gather and the scatter-add are the same host operations in both programs and are
  never opened.  The precondition (finite inputs) is not used: no step needs distributivity or cancellation.

  The three frames are the generated ones (the reference's is its generated run with the result dropped); the idealization
  rewrote no operation, so `preserves` has nothing to state.
-/
import proofs.«122438_j60619168416174_2_alg».proof.Defs
import proofs.«122438_j60619168416174_2_alg».proof.Proof.Gen.Kernel
import proofs.«122438_j60619168416174_2_alg».proof.Proof.Gen.Kernel.Skeleton
import proofs.«122438_j60619168416174_2_alg».proof.Proof.Gen.Kernel.Launch
import proofs.«122438_j60619168416174_2_alg».proof.Proof.Gen.Kernel.Points
import proofs.«122438_j60619168416174_2_alg».proof.Proof.Gen.Kernel.Frame
import proofs.«122438_j60619168416174_2_alg».proof.Proof.Gen.KernelIdeal
import proofs.«122438_j60619168416174_2_alg».proof.Proof.Gen.KernelIdeal.Skeleton
import proofs.«122438_j60619168416174_2_alg».proof.Proof.Gen.KernelIdeal.Launch
import proofs.«122438_j60619168416174_2_alg».proof.Proof.Gen.KernelIdeal.Points
import proofs.«122438_j60619168416174_2_alg».proof.Proof.Gen.KernelIdeal.Frame
import proofs.«122438_j60619168416174_2_alg».proof.Proof.Gen.ReferenceIdeal
import proofs.«122438_j60619168416174_2_alg».proof.Proof.Gen.ReferenceIdeal.Run
import proofs.«122438_j60619168416174_2_alg».proof.Proof.Gen.Pre_finite_inputs
import proofs.«122438_j60619168416174_2_alg».proof.Proof.KRun
import proofs.«122438_j60619168416174_2_alg».proof.Proof.KHost
import proofs.«122438_j60619168416174_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The two programs' host operations around the perceptrons — cutting the edge list, wrapping the node numbers, the
    gather, the scatter-add — are the same operations, so the two result functions are one. -/
theorem same_value (x0 : Cert.KernelIdeal.S50000x128.Idx → EReal)
    (x1 : (⟨Cert.KernelIdeal.S2x800000, .i32⟩ : BufTy).Contents (Elt Ideal))
    (x2 : Cert.KernelIdeal.S256x128.Idx → EReal) (x3 : Cert.KernelIdeal.S128.Idx → EReal)
    (x4 : Cert.KernelIdeal.S128x128.Idx → EReal) (x5 : Cert.KernelIdeal.S128.Idx → EReal)
    (x6 : Cert.KernelIdeal.S256x128.Idx → EReal) (x7 : Cert.KernelIdeal.S128.Idx → EReal)
    (x8 : Cert.KernelIdeal.S128x128.Idx → EReal) (x9 : Cert.KernelIdeal.S128.Idx → EReal) :
    Cert.ReferenceIdeal.Ref.value x0 x1 x2 x3 x4 x5 x6 x7 x8 x9 = Cert.KernelIdeal.Host.value x0 x1 x2 x3 x4 x5 x6 x7 x8 x9 :=
  rfl

theorem algebraic : Cert.algebraic_KernelIdeal_ReferenceIdeal := by
  intro m ρ m' ρ' _ hagree
  refine ⟨fun c => Cert.KernelIdeal.Host.value
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono
      (fun _ h c => ⟨(h c).1.trans (Cert.KernelIdeal.Host.result_value m ρ c), (h c).2⟩)
      (Cert.KernelIdeal.Run.run (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9⟩ := hagree c
    rw [h0, h1, h2, h3, h4, h5, h6, h7, h8, h9]
    exact (Cert.ReferenceIdeal.Ref.result_value _ _ _ _ _ _ _ _ _ _).trans (same_value _ _ _ _ _ _ _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
